-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x28x28 : Shape := ⟨4, ![128, 256, 28, 28]⟩
abbrev S16x256 : Shape := ⟨2, ![16, 256]⟩
abbrev S256x16 : Shape := ⟨2, ![256, 16]⟩
abbrev S_ : Shape := ⟨0, ![]⟩

class Facts : Prop where
  bcast_S_S128x256x28x28 : S_.BroadcastsInDim S128x256x28x28 (![] : Fin 0 → Fin S128x256x28x28.rank)
  reducesTo_S128x256x28x28_S_d0_1_2_3 : S128x256x28x28.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S128x256x28x28 .f32) (main_arg1 : FVec F S16x256 .f32) (main_arg2 : FVec F S256x16 .f32) : IVec S_ 1 :=
  let main_v0 : FVec F S128x256x28x28 .f32 := Host.absf main_arg0
  let main_cst : FVec F S_ .f32 := constant S_ .f32 0x7F800000#32
  let main_v1 : FVec F S128x256x28x28 .f32 := broadcastInDim S128x256x28x28 ![] bcast_S_S128x256x28x28 main_cst
  let main_v2 : IVec S128x256x28x28 1 := cmpf .olt main_v0 main_v1
  let main_c : IVec S_ 1 := constantI S_ 1 1#1
  let main_v3 : IVec S_ 1 := (fun x v => Host.reduce IntOp.andi x v reducesTo_S128x256x28x28_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S128x256x28x28 : Shape := ⟨4, ![128, 256, 28, 28]⟩
abbrev S16x256 : Shape := ⟨2, ![16, 256]⟩
abbrev S256x16 : Shape := ⟨2, ![256, 16]⟩
abbrev S28x28x128x256 : Shape := ⟨4, ![28, 28, 128, 256]⟩
abbrev S784x128x256 : Shape := ⟨3, ![784, 128, 256]⟩
abbrev S784x16x256 : Shape := ⟨3, ![784, 16, 256]⟩
abbrev S49x16x16x256 : Shape := ⟨4, ![49, 16, 16, 256]⟩
abbrev S49x16x256 : Shape := ⟨3, ![49, 16, 256]⟩
abbrev S16x16 : Shape := ⟨2, ![16, 16]⟩
abbrev S1x16x256 : Shape := ⟨3, ![1, 16, 256]⟩

abbrev nBuf : Space → Nat
  | .hbm => 8
  | .vmem => 6
  | .smem => 0
  | _ => 0

abbrev bufTy : (tb : Table) → Fin (tcTables nBuf tb) → BufTy
  | .hbm, ⟨0, _⟩ => ⟨S128x256x28x28, .f32⟩
  | .hbm, ⟨1, _⟩ => ⟨S16x256, .f32⟩
  | .hbm, ⟨2, _⟩ => ⟨S256x16, .f32⟩
  | .hbm, ⟨3, _⟩ => ⟨S28x28x128x256, .f32⟩
  | .hbm, ⟨4, _⟩ => ⟨S784x128x256, .f32⟩
  | .hbm, ⟨5, _⟩ => ⟨S784x128x256, .f32⟩
  | .hbm, ⟨6, _⟩ => ⟨S28x28x128x256, .f32⟩
  | .hbm, ⟨7, _⟩ => ⟨S128x256x28x28, .f32⟩
  | .local _ .vmem, ⟨0, _⟩ => ⟨S784x16x256, .f32⟩
  | .local _ .vmem, ⟨1, _⟩ => ⟨S784x16x256, .f32⟩
  | .local _ .vmem, ⟨2, _⟩ => ⟨S16x256, .f32⟩
  | .local _ .vmem, ⟨3, _⟩ => ⟨S256x16, .f32⟩
  | .local _ .vmem, ⟨4, _⟩ => ⟨S784x16x256, .f32⟩
  | .local _ .vmem, ⟨5, _⟩ => ⟨S784x16x256, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S784x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S784x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x256x28x28_S28x28x128x256_2_3_0_1 : S128x256x28x28.Transposes [2, 3, 0, 1] S28x28x128x256
  shapeCasts_S28x28x128x256_S784x128x256 : S28x28x128x256.ShapeCasts S784x128x256
  inb_S784x16x256_S784x16x256_0_0_0 : ∀ a, (![0, 0, 0] : Fin 3 → Nat) a + S784x16x256.size a ≤ S784x16x256.size a
  h_S784x16x256 : 0 < S784x16x256.numel
  shapeCasts_S784x16x256_S784x16x256 : S784x16x256.ShapeCasts S784x16x256
  shapeCasts_S784x16x256_S49x16x16x256 : S784x16x256.ShapeCasts S49x16x16x256
  reduces_S49x16x16x256_S49x16x256 : S49x16x16x256.Reduces [1] S49x16x256
  reduces_S49x16x256_S16x256 : S49x16x256.Reduces [0] S16x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  shapeCasts_S16x256_S1x16x256 : S16x256.ShapeCasts S1x16x256
  broadcasts_S1x16x256_S784x16x256 : S1x16x256.Broadcasts S784x16x256
  shapeCasts_S784x128x256_S28x28x128x256 : S784x128x256.ShapeCasts S28x28x128x256
  transposes_S28x28x128x256_S128x256x28x28_2_3_0_1 : S28x28x128x256.Transposes [2, 3, 0, 1] S128x256x28x28
  dot_S16x256_S16x256_S16x16_1_1_0_0_n_n_wf : DotDims.WF S16x256 S16x256 S16x16 [1] [1] [0] [0] [] []
  dot_S16x16_S256x16_S16x256_1_1_0_0_n_n_wf : DotDims.WF S16x16 S256x16 S16x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x16x256.size a ≤ S784x128x256.size a
  hwx0_0 : ∀ i : grid0.Coords, EltTy.bits .f32 = 32 ∨ (Rect.block (s := S784x128x256) S784x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S784x16x256.size a ≤ S784x128x256.size a
  hwx0_3 : ∀ i : grid0.Coords, EltTy.bits .f32 = 32 ∨ (Rect.block (s := S784x128x256) S784x16x256.size (cc0_transform_3 i) (hinb0_3 i)).WholeWords (EltTy.packing .f32)

variable [Facts₀]

def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x16_S256x16_S16x256_1_1_0_0_n_n : DotDims S16x16 S256x16 S16x256 where
  lhsContracting := [1]
  rhsContracting := [1]
  lhsNonContracting := [0]
  rhsNonContracting := [0]
  lhsBatch := []
  rhsBatch := []
  wf := dot_S16x16_S256x16_S16x256_1_1_0_0_n_n_wf

abbrev win0_0 : Pipeline.Window sig grid0 :=
  Pipeline.Window.ofSpec (Memref.whole main_v1) S784x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S784x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x256x28x28 : Shape := ⟨4, ![128, 256, 28, 28]⟩
abbrev S16x256 : Shape := ⟨2, ![16, 256]⟩
abbrev S256x16 : Shape := ⟨2, ![256, 16]⟩
abbrev S128x256x784 : Shape := ⟨3, ![128, 256, 784]⟩
abbrev S7x256x784 : Shape := ⟨3, ![7, 256, 784]⟩
abbrev S7x256 : Shape := ⟨2, ![7, 256]⟩
abbrev S7x16 : Shape := ⟨2, ![7, 16]⟩
abbrev S7x256x1 : Shape := ⟨3, ![7, 256, 1]⟩

abbrev nBuf : Space → Nat
  | .hbm => 6
  | .vmem => 6
  | .smem => 0
  | _ => 0

abbrev bufTy : (tb : Table) → Fin (tcTables nBuf tb) → BufTy
  | .hbm, ⟨0, _⟩ => ⟨S128x256x28x28, .f32⟩
  | .hbm, ⟨1, _⟩ => ⟨S16x256, .f32⟩
  | .hbm, ⟨2, _⟩ => ⟨S256x16, .f32⟩
  | .hbm, ⟨3, _⟩ => ⟨S128x256x784, .f32⟩
  | .hbm, ⟨4, _⟩ => ⟨S128x256x784, .f32⟩
  | .hbm, ⟨5, _⟩ => ⟨S128x256x28x28, .f32⟩
  | .local _ .vmem, ⟨0, _⟩ => ⟨S7x256x784, .f32⟩
  | .local _ .vmem, ⟨1, _⟩ => ⟨S7x256x784, .f32⟩
  | .local _ .vmem, ⟨2, _⟩ => ⟨S16x256, .f32⟩
  | .local _ .vmem, ⟨3, _⟩ => ⟨S256x16, .f32⟩
  | .local _ .vmem, ⟨4, _⟩ => ⟨S7x256x784, .f32⟩
  | .local _ .vmem, ⟨5, _⟩ => ⟨S7x256x784, .f32⟩
  | _, _ => ⟨S128x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![19], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7x256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7x256x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x256x28x28_S128x256x784 : S128x256x28x28.ShapeCasts S128x256x784
  inb_S7x256x784_S7x256x784_0_0_0 : ∀ a, (![0, 0, 0] : Fin 3 → Nat) a + S7x256x784.size a ≤ S7x256x784.size a
  h_S7x256x784 : 0 < S7x256x784.numel
  shapeCasts_S7x256x784_S7x256x784 : S7x256x784.ShapeCasts S7x256x784
  reduces_S7x256x784_S7x256 : S7x256x784.Reduces [2] S7x256
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  shapeCasts_S7x256_S7x256x1 : S7x256.ShapeCasts S7x256x1
  broadcasts_S7x256x1_S7x256x784 : S7x256x1.Broadcasts S7x256x784
  shapeCasts_S128x256x784_S128x256x28x28 : S128x256x784.ShapeCasts S128x256x28x28
  dot_S7x256_S16x256_S7x16_1_1_0_0_n_n_wf : DotDims.WF S7x256 S16x256 S7x16 [1] [1] [0] [0] [] []
  dot_S7x16_S256x16_S7x256_1_1_0_0_n_n_wf : DotDims.WF S7x16 S256x16 S7x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7x256x784.size a < S128x256x784.size a
  hwx0_0 : ∀ i : grid0.Coords, EltTy.bits .f32 = 32 ∨ (Rect.unit (s := S128x256x784) (fun a => cc0_transform_0 i a * S7x256x784.size a) (fun a => (Pipeline.Clip.of (cc0_transform_0 i a) (S7x256x784.size a) (S128x256x784.size a)).extent (S7x256x784.size a)) fun a => Pipeline.Clip.inb (Pipeline.Clip.ok_of (hstart0_0 i a))).WholeWords (EltTy.packing .f32)
  hwxs0_0 : ∀ i : grid0.Coords, EltTy.bits .f32 = 32 ∨ (Rect.unit (s := S7x256x784) (fun _ => 0) (fun a => (Pipeline.Clip.of (cc0_transform_0 i a) (S7x256x784.size a) (S128x256x784.size a)).extent (S7x256x784.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S7x256x784.size a < S128x256x784.size a
  hwx0_3 : ∀ i : grid0.Coords, EltTy.bits .f32 = 32 ∨ (Rect.unit (s := S128x256x784) (fun a => cc0_transform_3 i a * S7x256x784.size a) (fun a => (Pipeline.Clip.of (cc0_transform_3 i a) (S7x256x784.size a) (S128x256x784.size a)).extent (S7x256x784.size a)) fun a => Pipeline.Clip.inb (Pipeline.Clip.ok_of (hstart0_3 i a))).WholeWords (EltTy.packing .f32)
  hwxs0_3 : ∀ i : grid0.Coords, EltTy.bits .f32 = 32 ∨ (Rect.unit (s := S7x256x784) (fun _ => 0) (fun a => (Pipeline.Clip.of (cc0_transform_3 i a) (S7x256x784.size a) (S128x256x784.size a)).extent (S7x256x784.size a)) fun a => (Nat.zero_add _).trans_le (Pipeline.Clip.extent_le (Pipeline.Clip.ok_of (hstart0_3 i a)))).WholeWords (EltTy.packing .f32)

variable [Facts₀]

def dot_S7x256_S16x256_S7x16_1_1_0_0_n_n : DotDims S7x256 S16x256 S7x16 where
  lhsContracting := [1]
  rhsContracting := [1]
  lhsNonContracting := [0]
  rhsNonContracting := [0]
  lhsBatch := []
  rhsBatch := []
  wf := dot_S7x256_S16x256_S7x16_1_1_0_0_n_n_wf
def dot_S7x16_S256x16_S7x256_1_1_0_0_n_n : DotDims S7x16 S256x16 S7x256 where
  lhsContracting := [1]
  rhsContracting := [1]
  lhsNonContracting := [0]
  rhsNonContracting := [0]
  lhsBatch := []
  rhsBatch := []
  wf := dot_S7x16_S256x16_S7x256_1_1_0_0_n_n_wf

abbrev win0_0 : Pipeline.Window sig grid0 :=
  Pipeline.Window.ofSpecClip (Memref.whole main_v0) S7x256x784.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S7x256x784.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.SeSpec.lean ====
/-
  The squeeze-and-excitation block as one function of its three argument arrays, index by index, on the
  extended reals.

  For an input `x` of shape [128, 256, 28, 28] (image, channel, row, column), a first weight matrix `w1` of shape
  [16, 256] and a second `w2` of shape [256, 16]:

    pool  b k = (∑ over the 784 pixels s of  x (b, k, s / 28, s % 28)) · c        the channel's mean (c is the f32 nearest 1/784)
    hidden b r = max (∑ k, pool b k · w1 (r, k)) 0                                 the first layer and its rectifier
    gate  b c = logistic (∑ r, hidden b r · w2 (c, r))                            the second layer and the sigmoid
    G (b, c, h, w) = x (b, c, h, w) · gate b c                                     the channel rescaled

  Both programs compute `G`; they differ in how the pixel sum is grouped (49 groups of 16 against one run of 784)
  and in how the array is laid out while it is processed. A sum on the extended reals may be regrouped freely
  (addition there is commutative and associative), so no finiteness of the inputs is needed.
-/
import Idealize.ShloMosaic.PureOps.Ideal
import Idealize.ShloMosaic.Lib.ValueIdx

noncomputable section

namespace SeBlock

open Idealize.ShloMosaic Idealize.ShloMosaic.ValueIdx

/-- The input's shape: 128 images of 256 channels of 28 × 28 pixels. -/
abbrev SX : Shape := ⟨4, ![128, 256, 28, 28]⟩
/-- The first layer's weights: 16 hidden units by 256 channels. -/
abbrev SW1 : Shape := ⟨2, ![16, 256]⟩
/-- The second layer's weights: 256 channels by 16 hidden units. -/
abbrev SW2 : Shape := ⟨2, ![256, 16]⟩

/-- The scale both programs multiply the pixel sum by: the f32 word nearest to 1/784, read as the number it denotes. -/
def invPixels : EReal := Ideal.ofBits .f32 0x3AA72F05#32

/-- Pixel number `s` of a 28 × 28 image in row-major order sits in row `s / 28` -/
def pixRow (s : Fin 784) : Fin 28 := ⟨s.val / 28, by have := s.isLt; omega⟩
/-- and column `s % 28`. -/
def pixCol (s : Fin 784) : Fin 28 := ⟨s.val % 28, Nat.mod_lt _ (by decide)⟩

/-- The scaled pixel sum of channel `k` of image `b`. -/
def pool (x : SX.Idx → EReal) (b : Fin 128) (k : Fin 256) : EReal :=
  (∑ s : Fin 784, x (ix4 b k (pixRow s) (pixCol s))) * invPixels

/-- Hidden unit `r` of image `b`: the first layer applied to the pooled channels, rectified. -/
def hidden (x : SX.Idx → EReal) (w1 : SW1.Idx → EReal) (b : Fin 128) (r : Fin 16) : EReal :=
  max (∑ k : Fin 256, pool x b k * w1 (ix2 r k)) 0

/-- The gate of channel `c` of image `b`: the second layer applied to the hidden units, through the logistic function. -/
def gate (x : SX.Idx → EReal) (w1 : SW1.Idx → EReal) (w2 : SW2.Idx → EReal) (b : Fin 128) (c : Fin 256) : EReal :=
  Ideal.logistic (∑ r : Fin 16, hidden x w1 b r * w2 (ix2 c r))

/-- The block's result: every pixel of a channel multiplied by the channel's gate. -/
def G (x : SX.Idx → EReal) (w1 : SW1.Idx → EReal) (w2 : SW2.Idx → EReal) : SX.Idx → EReal :=
  fun i => x i * gate x w1 w2 (i 0) (i 1)

end SeBlock

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.KernelPayload.lean ====
/-
  The kernel body's arithmetic read at one index of the block it stores.

  The body receives a block `x0` of shape [784, 16, 256] (pixel, image within the block, channel) and the two weight
  matrices.  It splits the 784 pixels into 49 groups of 16, sums each group, then sums the 49 group sums: together the
  sum over all 784 pixels (a sum over 49 · 16 indices read group by group).  The scaled sums go through the two small
  matrix products (each contracting the last axis of both operands), the rectifier and the logistic function, and the
  resulting [16, 256] gate multiplies every pixel of its image and channel.
-/
import proofs.«106039_g2000206592738388_pallasbulk_217_6_alg».proof.Proof.Gen.KernelIdeal.Skeleton
import proofs.«106039_g2000206592738388_pallasbulk_217_6_alg».proof.Proof.SeSpec
import proofs.«106039_g2000206592738388_pallasbulk_217_6_alg».proof.Proof.LibSumBlocks
import proofs.«106039_g2000206592738388_pallasbulk_217_6_alg».proof.Proof.LibGram
import Idealize.ShloMosaic.Lib.Pipeline.Value
import Idealize.ShloMosaic.Lib.ValueLayout
import Idealize.ShloMosaic.PureOps.Ideal.Laws

noncomputable section

namespace Cert.KernelIdeal.SeValue

open Idealize.ShloMosaic Idealize.ShloMosaic.ValueIdx
open Cert.KernelIdeal Cert.KernelIdeal.Gen

/-- Pixel `q` of group `p` when the 784 pixels are split row-major into 49 groups of 16. -/
def pix (p : Fin 49) (q : Fin 16) : Fin 784 := ⟨p.val * 16 + q.val, by have := p.isLt; have := q.isLt; omega⟩

/-- The block with its pixel axis split reads, at group `p` and position `q`, the block at pixel `16 p + q`. -/
theorem split_apply {α : Type} (x : S784x16x256.Idx → α) (h : S784x16x256.ShapeCasts S49x16x16x256)
    (p : Fin 49) (q : Fin 16) (j : Fin 16) (k : Fin 256) :
    shapeCast S49x16x16x256 x h (ix4 p q j k) = x (ix3 (pix p q) j k) :=
  shapeCast_apply x h _ _ (by rw [Shape.rowMajor_val_three, Shape.rowMajor_val_four]; rfl)

/-- The sum inside a group: over the 16 positions of group `p`. -/
theorem sum_in_group (v : FVec Ideal S49x16x16x256 .f32) (h : S49x16x16x256.Reduces [1] S49x16x256) (hφ : FKind.Formats .f32)
    (hacc : (0x00000000#32 : BitVec 32) = FKind.add.neutral .f32 hφ) (p : Fin 49) (j : Fin 16) (k : Fin 256) :
    multiReduction .add [1] S49x16x256 v 0x00000000#32 h hφ hacc (ix3 p j k) = ∑ q : Fin 16, v (ix4 p q j k) :=
  (Ideal.multiReduction_add_single v _ h hφ hacc (ix3 p j k)).trans
    (Finset.sum_congr rfl fun q _ => congrArg v (funext fun a => Fin.ext (by
      match a with | ⟨0, _⟩ => rfl | ⟨1, _⟩ => rfl | ⟨2, _⟩ => rfl | ⟨3, _⟩ => rfl)))

/-- The sum of the group sums: over the 49 groups. -/
theorem sum_of_groups (v : FVec Ideal S49x16x256 .f32) (h : S49x16x256.Reduces [0] S16x256) (hφ : FKind.Formats .f32)
    (hacc : (0x00000000#32 : BitVec 32) = FKind.add.neutral .f32 hφ) (j : Fin 16) (k : Fin 256) :
    multiReduction .add [0] S16x256 v 0x00000000#32 h hφ hacc (ix2 j k) = ∑ p : Fin 49, v (ix3 p j k) :=
  (Ideal.multiReduction_add_single v _ h hφ hacc (ix2 j k)).trans
    (Finset.sum_congr rfl fun p _ => congrArg v (funext fun a => Fin.ext (by
      match a with | ⟨0, _⟩ => rfl | ⟨1, _⟩ => rfl | ⟨2, _⟩ => rfl)))

/-- The two sums together are the sum over all 784 pixels of the block. -/
theorem pixel_sum (x0 : FVec Ideal S784x16x256 .f32) (h1 : S784x16x256.ShapeCasts S784x16x256)
    (h2 : S784x16x256.ShapeCasts S49x16x16x256) (hr1 : S49x16x16x256.Reduces [1] S49x16x256)
    (hr2 : S49x16x256.Reduces [0] S16x256) (hφ : FKind.Formats .f32)
    (hacc : (0x00000000#32 : BitVec 32) = FKind.add.neutral .f32 hφ) (j : Fin 16) (k : Fin 256) :
    multiReduction .add [0] S16x256
        (multiReduction .add [1] S49x16x256 (shapeCast S49x16x16x256 (shapeCast S784x16x256 x0 h1) h2) 0x00000000#32 hr1 hφ hacc)
        0x00000000#32 hr2 hφ hacc (ix2 j k)
      = ∑ s : Fin 784, x0 (ix3 s j k) := by
  refine (sum_of_groups _ hr2 hφ hacc j k).trans ?_
  rw [shapeCast_self]
  refine (Finset.sum_congr rfl fun p _ => (sum_in_group _ hr1 hφ hacc p j k).trans
    (Finset.sum_congr rfl fun q _ => split_apply x0 h2 p q j k)).trans ?_
  exact (SumBlocks.sum_blocks (A := 49) (B := 16) (fun s : Fin 784 => x0 (ix3 s j k))).symm

/-- The first product, pooled [16, 256] against the first weights [16, 256], both contracted over the 256 channels. -/
theorem product1_apply (l r : FVec Ideal S16x256 .f32) (j : Fin 16) (u : Fin 16) :
    matmul dot_S16x256_S16x256_S16x16_1_1_0_0_n_n none l r (constant (F := Ideal) S16x16 .f32 0x00000000#32) (ix2 j u)
      = ∑ k : Fin 256, l (ix2 j k) * r (ix2 u k) :=
  (Ideal.matmul_constant_zero_apply dot_S16x256_S16x256_S16x16_1_1_0_0_n_n none l r (ix2 j u)).trans
    (Gram.sum_contr_last dot_S16x256_S16x256_S16x16_1_1_0_0_n_n rfl rfl rfl rfl (fun _ _ => rfl) (fun _ _ => rfl) l r (ix2 j u))

/-- The second product, hidden units [16, 16] against the second weights [256, 16], both contracted over the 16 hidden units. -/
theorem product2_apply (l : FVec Ideal S16x16 .f32) (r : FVec Ideal S256x16 .f32) (j : Fin 16) (c : Fin 256) :
    matmul dot_S16x16_S256x16_S16x256_1_1_0_0_n_n none l r (constant (F := Ideal) S16x256 .f32 0x00000000#32) (ix2 j c)
      = ∑ u : Fin 16, l (ix2 j u) * r (ix2 c u) :=
  (Ideal.matmul_constant_zero_apply dot_S16x16_S256x16_S16x256_1_1_0_0_n_n none l r (ix2 j c)).trans
    (Gram.sum_contr_last dot_S16x16_S256x16_S16x256_1_1_0_0_n_n rfl rfl rfl rfl (fun _ _ => rfl) (fun _ _ => rfl) l r (ix2 j c))

/-- The [16, 256] gate given a leading unit axis and repeated along the 784 pixels reads, at any pixel, the gate. -/
theorem repeat_apply {α : Type} (g : S16x256.Idx → α) (h1 : S16x256.ShapeCasts S1x16x256) (h2 : S1x16x256.Broadcasts S784x16x256)
    (s : Fin 784) (j : Fin 16) (c : Fin 256) :
    broadcastTo S784x16x256 (shapeCast S1x16x256 g h1) h2 (ix3 s j c) = g (ix2 j c) :=
  (broadcastTo_apply _ h2 (ix3 s j c) (ix3 (0 : Fin 1) j c) (by
    intro a
    match a with | ⟨0, _⟩ => rfl | ⟨1, _⟩ => rfl | ⟨2, _⟩ => rfl)).trans
    (shapeCast_apply g h1 _ _ (by rw [Shape.rowMajor_val_two, Shape.rowMajor_val_three]; show j.val * 256 + c.val = (0 * 16 + j.val) * 256 + c.val; omega))

/-- THE BODY AT AN INDEX: pixel `s` of image `j` and channel `c` of the stored block is the loaded block there times the
    gate of image `j` and channel `c`, the gate computed from the block's own pixel sums. -/
theorem payload_apply (x0 : Vec Ideal S784x16x256 .f32) (w1 : Vec Ideal S16x256 .f32) (w2 : Vec Ideal S256x16 .f32)
    (s : Fin 784) (j : Fin 16) (c : Fin 256) :
    k0_pay1 (F := Ideal) x0 w1 w2 (ix3 s j c)
      = x0 (ix3 s j c) * Ideal.logistic (∑ u : Fin 16,
          max (∑ k : Fin 256, ((∑ s' : Fin 784, x0 (ix3 s' j k)) * SeBlock.invPixels) * w1 (ix2 u k)) 0 * w2 (ix2 c u)) := by
  unfold k0_pay1
  refine (mulf_apply _ _ (ix3 s j c)).trans ?_
  refine congrArg₂ (· * ·) (congrFun (shapeCast_self x0 _) _) ?_
  refine (repeat_apply _ _ _ s j c).trans ?_
  show Ideal.logistic _ = _
  refine congrArg Ideal.logistic ?_
  refine (product2_apply _ _ j c).trans ?_
  refine Finset.sum_congr rfl fun u _ => congrArg (· * w2 (ix2 c u)) ?_
  refine (maximumf_apply _ _ _).trans ?_
  refine congrArg₂ max ?_ Ideal.ofBits_zero_f32
  refine (product1_apply _ _ j u).trans ?_
  refine Finset.sum_congr rfl fun k _ => congrArg (· * w1 (ix2 u k)) ?_
  refine (mulf_apply _ _ _).trans ?_
  exact congrArg₂ (· * ·) (pixel_sum x0 _ _ _ _ _ _ j k) rfl

/-- A BLOCK OF THE SPECIFICATION: when the loaded block holds, at (s, j, k), the input at image `img j`, channel `k` and
    pixel `s` (row `s / 28`, column `s % 28`), and the two weight blocks are the weight arrays, the stored block holds at
    (s, j, c) the squeeze-and-excitation result at image `img j`, channel `c` and pixel `s`: the pixel sums of the block
    are the pixel sums of its images, because the block holds every pixel of each of its 16 images. -/
theorem block_value (X : SeBlock.SX.Idx → EReal) (W1 : SeBlock.SW1.Idx → EReal) (W2 : SeBlock.SW2.Idx → EReal)
    (x0 : Vec Ideal S784x16x256 .f32) (w1 : Vec Ideal S16x256 .f32) (w2 : Vec Ideal S256x16 .f32) (img : Fin 16 → Fin 128)
    (hx : ∀ (s : Fin 784) (j : Fin 16) (k : Fin 256),
      x0 (ix3 s j k) = X (ix4 (img j) k (SeBlock.pixRow s) (SeBlock.pixCol s)))
    (hw1 : ∀ (u : Fin 16) (k : Fin 256), w1 (ix2 u k) = W1 (ix2 u k))
    (hw2 : ∀ (c : Fin 256) (u : Fin 16), w2 (ix2 c u) = W2 (ix2 c u))
    (s : Fin 784) (j : Fin 16) (c : Fin 256) :
    k0_pay1 (F := Ideal) x0 w1 w2 (ix3 s j c)
      = SeBlock.G X W1 W2 (ix4 (img j) c (SeBlock.pixRow s) (SeBlock.pixCol s)) := by
  rw [payload_apply]
  simp only [hx, hw1, hw2]
  rfl

end Cert.KernelIdeal.SeValue

end
-- ==== Proof.KernelBlocks.lean ====
/-
  From the blocks the grid points write to the whole pixel-major result array.

  Before the region the input [128, 256, 28, 28] is transposed to [28, 28, 128, 256] and its two leading axes merged:
  the region finds an array `xt` of shape [784, 128, 256] with `xt (s, b, k) = x (b, k, s / 28, s % 28)`.  Grid point
  `t` (of 8) reads the block of images `16 t … 16 t + 15` of `xt` (all 784 pixels, all 256 channels) and the two weight
  arrays whole, and writes the block of the same images of the result array.  Since a block holds every pixel of its
  images, what point `t` writes is the block of one function of the three arguments — the specification read
  pixel-major — and the 8 blocks tile the array.
-/
import proofs.«106039_g2000206592738388_pallasbulk_217_6_alg».proof.Proof.Gen.KernelIdeal.Frame
import proofs.«106039_g2000206592738388_pallasbulk_217_6_alg».proof.Proof.KernelPayload
import Idealize.ShloMosaic.Lib.Pipeline.Value
import Idealize.ShloMosaic.Lib.Tactic

noncomputable section

namespace Cert.KernelIdeal.SeValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- The specification read pixel-major: at (s, b, c) the result at image `b`, channel `c`, row `s / 28`, column `s % 28`. -/
def pixelMajor (x : SeBlock.SX.Idx → EReal) (w1 : SeBlock.SW1.Idx → EReal) (w2 : SeBlock.SW2.Idx → EReal) :
    S784x128x256.Idx → EReal :=
  fun i => SeBlock.G x w1 w2 (ix4 (i 1) (i 2) (SeBlock.pixRow (i 0)) (SeBlock.pixCol (i 0)))

/-- The array the region finds: the input transposed and its two pixel axes merged, read at an index. -/
theorem entry_apply (c : Dev nD) (s : Fin 784) (b : Fin 128) (k : Fin 256) :
    (V m c main_v1 : S784x128x256.Idx → EReal) (ix3 s b k)
      = (m ((c : Thread nD τ).loc main_arg0) : S128x256x28x28.Idx → EReal) (ix4 b k (SeBlock.pixRow s) (SeBlock.pixCol s)) := by
  have e : (V m c main_v1 : S784x128x256.Idx → EReal)
      = shapeCast S784x128x256 (transpose S28x28x128x256 [2, 3, 0, 1]
          (m ((c : Thread nD τ).loc main_arg0) : S128x256x28x28.Idx → EReal) transposes_S128x256x28x28_S28x28x128x256_2_3_0_1)
          shapeCasts_S28x28x128x256_S784x128x256 := by
    show StableHlo.after hostOps0 (fun b => m (c, b)) (Proc.devRef .tc main_v1) = _
    after_results
    rfl
  rw [e]
  refine (shapeCast_apply _ _ _ (ix4 (SeBlock.pixRow s) (SeBlock.pixCol s) b k) ?_).trans ?_
  · rw [Shape.rowMajor_val_four, Shape.rowMajor_val_three]
    show ((s.val / 28 * 28 + s.val % 28) * 128 + b.val) * 256 + k.val = (s.val * 128 + b.val) * 256 + k.val
    rw [Nat.div_add_mod' s.val 28]
  · exact transpose_apply _ _ _ _ (ix4 b k (SeBlock.pixRow s) (SeBlock.pixCol s)) (by
      intro a
      match a with | ⟨0, _⟩ => rfl | ⟨1, _⟩ => rfl | ⟨2, _⟩ => rfl | ⟨3, _⟩ => rfl)

/-- The printed index maps over the grid: the image axis moves with the point, the other axes stay at block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- Image `j` of the block of point `t` is image `16 t + j` of the array. -/
def img (t : Fin cfg0.N) (j : Fin 16) : Fin 128 :=
  ⟨16 * t.val + j.val, by have h := t.isLt; have e : cfg0.N = 8 := N_0; have := j.isLt; omega⟩

/-- The input block at point `t`: the images `16 t …` of the argument, pixel-major. -/
theorem iblk0_apply (c : Dev nD) (t : Fin cfg0.N) (s : Fin 784) (j : Fin 16) (k : Fin 256) :
    (iblk m c 0 t : Vec Ideal S784x16x256 .f32) (ix3 s j k)
      = (m ((c : Thread nD τ).loc main_arg0) : S128x256x28x28.Idx → EReal) (ix4 (img t j) k (SeBlock.pixRow s) (SeBlock.pixCol s)) := by
  obtain ⟨e0, e1, e2, -⟩ := idx_facts t
  unfold iblk
  show V m c main_v1 (((cfg0.win 0).blk t).view.emb (ix3 s j k)) = _
  refine Eq.trans (congrArg (V m c main_v1) ?_) (entry_apply m c s (img t j) k)
  funext a
  apply Fin.ext
  match a with
  | ⟨0, _⟩ => show win0_0.index t (0 : Fin 3) * 784 + 1 * s.val = s.val; rw [e0]; omega
  | ⟨1, _⟩ => show win0_0.index t (1 : Fin 3) * 16 + 1 * j.val = 16 * t.val + j.val; rw [e1]; omega
  | ⟨2, _⟩ => show win0_0.index t (2 : Fin 3) * 256 + 1 * k.val = k.val; rw [e2]; omega

/-- The first weight block at any point is the first weight array. -/
theorem iblk1_apply (c : Dev nD) (t : Fin cfg0.N) (u : Fin 16) (k : Fin 256) :
    (iblk m c 1 t : Vec Ideal S16x256 .f32) (ix2 u k) = (m ((c : Thread nD τ).loc main_arg1) : S16x256.Idx → EReal) (ix2 u k) := by
  obtain ⟨-, -, -, e0, e1, -⟩ := idx_facts t
  unfold iblk
  show V m c main_arg1 (((cfg0.win 1).blk t).view.emb (ix2 u k)) = _
  rw [V_main_arg1]
  refine congrArg _ ?_
  funext a
  apply Fin.ext
  match a with
  | ⟨0, _⟩ => show win0_1.index t (0 : Fin 2) * 16 + 1 * u.val = u.val; rw [e0]; omega
  | ⟨1, _⟩ => show win0_1.index t (1 : Fin 2) * 256 + 1 * k.val = k.val; rw [e1]; omega

/-- The second weight block at any point is the second weight array. -/
theorem iblk2_apply (c : Dev nD) (t : Fin cfg0.N) (ch : Fin 256) (u : Fin 16) :
    (iblk m c 2 t : Vec Ideal S256x16 .f32) (ix2 ch u) = (m ((c : Thread nD τ).loc main_arg2) : S256x16.Idx → EReal) (ix2 ch u) := by
  obtain ⟨-, -, -, -, -, e0, e1, -⟩ := idx_facts t
  unfold iblk
  show V m c main_arg2 (((cfg0.win 2).blk t).view.emb (ix2 ch u)) = _
  rw [V_main_arg2]
  refine congrArg _ ?_
  funext a
  apply Fin.ext
  match a with
  | ⟨0, _⟩ => show win0_2.index t (0 : Fin 2) * 256 + 1 * ch.val = ch.val; rw [e0]; omega
  | ⟨1, _⟩ => show win0_2.index t (1 : Fin 2) * 16 + 1 * u.val = u.val; rw [e1]; omega

/-- WHAT POINT `t` WRITES BACK is block `t` of the specification read pixel-major. -/
theorem flushed_eq (c : Dev nD) (t : Fin cfg0.N) :
    (dats m 0 c).flushed 3 t = ((cfg0.win 3).blk t).view.read (Elt Ideal)
      (pixelMajor (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zero3]
  simp only [View.ld_unit_zero (S := S784x16x256) zero3, View.ld_unit_zero (S := S16x256) zero2, View.ld_unit_zero (S := S256x16) zero2]
  obtain ⟨-, -, -, -, -, -, -, e0, e1, e2⟩ := idx_facts t
  funext y
  obtain ⟨s, j, k, rfl⟩ : ∃ (s : Fin 784) (j : Fin 16) (k : Fin 256), y = ix3 s j k := ⟨y 0, y 1, y 2, eq_ix3 y⟩
  show k0_pay1 (F := Ideal) (iblk m c 0 t) (iblk m c 1 t) (iblk m c 2 t) (ix3 s j k)
    = pixelMajor (m ((c : Thread nD τ).loc main_arg0)) (m ((c : Thread nD τ).loc main_arg1)) (m ((c : Thread nD τ).loc main_arg2))
        (((cfg0.win 3).blk t).view.emb (ix3 s j k))
  refine (block_value (m ((c : Thread nD τ).loc main_arg0)) (m ((c : Thread nD τ).loc main_arg1)) (m ((c : Thread nD τ).loc main_arg2))
    (iblk m c 0 t) (iblk m c 1 t) (iblk m c 2 t) (img t) (iblk0_apply m c t) (iblk1_apply m c t) (iblk2_apply m c t) s j k).trans ?_
  unfold pixelMajor
  refine congrArg (SeBlock.G _ _ _) ?_
  funext a
  apply Fin.ext
  match a with
  | ⟨0, _⟩ => show 16 * t.val + j.val = win0_3.index t (1 : Fin 3) * 16 + 1 * j.val; rw [e1]; omega
  | ⟨1, _⟩ => show k.val = win0_3.index t (2 : Fin 3) * 256 + 1 * k.val; rw [e2]; omega
  | ⟨2, _⟩ => show s.val / 28 = (win0_3.index t (0 : Fin 3) * 784 + 1 * s.val) / 28; rw [e0]; omega
  | ⟨3, _⟩ => show s.val % 28 = (win0_3.index t (0 : Fin 3) * 784 + 1 * s.val) % 28; rw [e0]; omega

/-- An index of the result array is in point `t`'s block iff each coordinate is in the block's range on its axis. -/
theorem mem_blk (t : Fin cfg0.N) (i : S784x128x256.Idx) :
    i ∈ ((cfg0.win 3).blk t).view.set ↔ ∀ a : Fin 3, win0_3.index t a * S784x16x256.size a ≤ (i a).val
      ∧ (i a).val < win0_3.index t a * S784x16x256.size a + S784x16x256.size a := by
  show i ∈ ((View.whole main_v2).slice (win0_3.rect t)).set ↔ _
  rw [View.set_slice_whole, Rect.mem_set_unit]
  exact Iff.rfl

/-- The 8 blocks tile the result array: image `b` is in the block of point `b / 16`. -/
theorem cover (i : S784x128x256.Idx) :
    ∃ t : Fin cfg0.N, (cfg0.win 3).flush t = true ∧ i ∈ ((cfg0.win 3).blk t).view.set := by
  have h0 : (i 0).val < 784 := (i 0).isLt
  have h1 : (i 1).val < 128 := (i 1).isLt
  have h2 : (i 2).val < 256 := (i 2).isLt
  have hN : cfg0.N = 8 := N_0
  obtain ⟨t, ht⟩ : ∃ t : Fin cfg0.N, t.val = (i 1).val / 16 := ⟨⟨(i 1).val / 16, by rw [hN]; omega⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 784 ≤ (i 0).val ∧ (i 0).val < win0_3.index t (0 : Fin 3) * 784 + 784; rw [e0]; omega
  | ⟨1, _⟩ => show win0_3.index t (1 : Fin 3) * 16 ≤ (i 1).val ∧ (i 1).val < win0_3.index t (1 : Fin 3) * 16 + 16; rw [e1, ht]; omega
  | ⟨2, _⟩ => show win0_3.index t (2 : Fin 3) * 256 ≤ (i 2).val ∧ (i 2).val < win0_3.index t (2 : Fin 3) * 256 + 256; rw [e2]; omega

/-- THE RESULT ARRAY OF THE REGION after the run: the specification read pixel-major. -/
theorem final (c : Dev nD) : (dats m 0 c).arrAt 3 cfg0.N
    = pixelMajor (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelIdeal.SeValue

end
-- ==== Proof.KernelRun.lean ====
/-
  The run of the kernel's program, read: the result is the squeeze-and-excitation block of the three arguments.

  After the region the pixel-major result array [784, 128, 256] has its pixel axis split back into 28 rows of 28 columns
  and the axes are put back in the input's order (image, channel, row, column).  Entry (b, c, h, w) of the result is thus
  entry (28 h + w, b, c) of the region's array, which is the specification at image `b`, channel `c`, row
  `(28 h + w) / 28 = h` and column `(28 h + w) % 28 = w`.
-/
import proofs.«106039_g2000206592738388_pallasbulk_217_6_alg».proof.Proof.KernelBlocks
import Idealize.ShloMosaic.Lib.Pipeline.FrameSuffix
import Idealize.ShloMosaic.Lib.Tactic

noncomputable section

namespace Cert.KernelIdeal.SeValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The pixel-major array with its pixel axis split and its axes reordered is the specification. -/
theorem unmajor (x : SeBlock.SX.Idx → EReal) (w1 : SeBlock.SW1.Idx → EReal) (w2 : SeBlock.SW2.Idx → EReal)
    (h1 : S784x128x256.ShapeCasts S28x28x128x256) (h2 : S28x28x128x256.Transposes [2, 3, 0, 1] S128x256x28x28) :
    transpose S128x256x28x28 [2, 3, 0, 1] (shapeCast S28x28x128x256 (pixelMajor x w1 w2) h1) h2 = SeBlock.G x w1 w2 := by
  funext i
  obtain ⟨b, ch, h, w, rfl⟩ : ∃ (b : Fin 128) (ch : Fin 256) (h w : Fin 28), i = ix4 b ch h w :=
    ⟨i 0, i 1, i 2, i 3, eq_ix4 i⟩
  refine (transpose_apply _ _ h2 _ (ix4 h w b ch) (by
    intro a
    match a with | ⟨0, _⟩ => rfl | ⟨1, _⟩ => rfl | ⟨2, _⟩ => rfl | ⟨3, _⟩ => rfl)).trans ?_
  have hs : h.val * 28 + w.val < 784 := by have := h.isLt; have := w.isLt; omega
  refine (shapeCast_apply _ h1 _ (ix3 (⟨h.val * 28 + w.val, hs⟩ : Fin 784) b ch) (by
    rw [Shape.rowMajor_val_three, Shape.rowMajor_val_four]; rfl)).trans ?_
  unfold pixelMajor
  refine congrArg (SeBlock.G x w1 w2) ?_
  funext a
  apply Fin.ext
  match a with
  | ⟨0, _⟩ => rfl
  | ⟨1, _⟩ => rfl
  | ⟨2, _⟩ => show (h.val * 28 + w.val) / 28 = h.val; have := w.isLt; omega
  | ⟨3, _⟩ => show (h.val * 28 + w.val) % 28 = w.val; have := w.isLt; omega

/-- What the lines after the region leave in the result buffer. -/
theorem tail_eq (c : Dev nD) :
    Pipeline.afterTail₀ cfgs (dats m) 0 (V0 m) [hostOps1] c main_v4
      = SeBlock.G (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = pixelMajor (m ((c : Thread nD τ).loc main_arg0)) (m ((c : Thread nD τ).loc main_arg1)) (m ((c : Thread nD τ).loc main_arg2)) :=
    (Pipeline.withArrays_arr spec0 launch0.win.arr_inj c _ _ 3).trans (final m c)
  rw [hw]
  exact unmajor _ _ _ _ _

/-- THE KERNEL'S RUN, READ: every weakly fair execution of the program from any memory with zero counters terminates with the
    result buffer at the squeeze-and-excitation block of the three arguments, and the arguments as they were. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4)
        = SeBlock.G (m ((c.tc : Thread _ _).loc Cert.KernelIdeal.main_arg0)) (m ((c.tc : Thread _ _).loc Cert.KernelIdeal.main_arg1)) (m ((c.tc : Thread _ _).loc Cert.KernelIdeal.main_arg2))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)
      ∧ r.2.mem ((c.tc : Thread _ _).loc Cert.KernelIdeal.main_arg2) = m ((c.tc : Thread _ _).loc Cert.KernelIdeal.main_arg2)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.SeValue

end
-- ==== Proof.RefBody.lean ====
/-
  The reference program's kernel body as a triple: one run of the body on whole staging buffers.

  The body reads the image block (seven images' 256 channels of 784 pixels) and the two weight matrices through
  rectangles that are the whole buffers, computes one value from them — the block with every channel scaled by
  its gate — and stores it over the whole result buffer. So, whatever the four buffers hold when it starts, it
  ends with the three it reads unchanged and the result buffer holding that one value (`stored`).
-/
import proofs.«106039_g2000206592738388_pallasbulk_217_6_alg».proof.Proof.Gen.ReferenceIdeal.Launch
import proofs.«106039_g2000206592738388_pallasbulk_217_6_alg».proof.Proof.Gen.ReferenceIdeal.Skeleton
import proofs.«106039_g2000206592738388_pallasbulk_217_6_alg».proof.Proof.Gen.ReferenceIdeal.Points
import proofs.«106039_g2000206592738388_pallasbulk_217_6_alg».proof.Proof.Gen.ReferenceIdeal.Frame
import Idealize.ShloMosaic.Lib.Pipeline.FrameBody
import Idealize.ShloMosaic.Lib.Tactic

set_option maxRecDepth 16384

noncomputable section

namespace Cert.ReferenceIdeal.SeFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle every access of the image block and of the result block goes through: the whole [7, 256, 784] buffer. -/
abbrev rImg : Rect S7x256x784 := Rect.unit (s := S7x256x784) ![0, 0, 0] S7x256x784.size inb_S7x256x784_S7x256x784_0_0_0
/-- The whole [16, 256] buffer of the first weight matrix. -/
abbrev rW1 : Rect S16x256 := Rect.unit (s := S16x256) ![0, 0] S16x256.size inb_S16x256_S16x256_0_0
/-- The whole [256, 16] buffer of the second weight matrix. -/
abbrev rW2 : Rect S256x16 := Rect.unit (s := S256x16) ![0, 0] S256x16.size inb_S256x16_S256x16_0_0

/-- What the result buffer holds after the body, as a function of what the three input buffers hold: the one store's
    value over the loads (the image block is loaded twice, once for the pixel sums and once for the product). -/
def stored (x0 : Vec F S7x256x784 .f32) (x1 : Vec F S16x256 .f32) (x2 : Vec F S256x16 .f32) : Vec F S7x256x784 .f32 :=
  View.canon [⟨rImg, k0_pay1 (View.ld x0 rImg) (View.ld x1 rW1) (View.ld x2 rW2) (View.ld x0 rImg)⟩]

/-- The one store covers the result buffer. -/
theorem stored_cover (p0 : Vec F S7x256x784 .f32) (y : S7x256x784.Idx) :
    ∃ pc ∈ ([⟨rImg, p0⟩] : List (View.Piece (Elt F) S7x256x784 .f32)), y ∈ pc.1.set :=
  View.cover_of_tiled [⟨rImg, p0⟩] S7x256x784.size (by rfl) y

set_option maxHeartbeats 1000000 in
/-- The body on whole staging buffers: the three inputs at contents `x0`, `x1`, `x2` and the result at anything run to
    the same three and the result at `stored x0 x1 x2`. -/
theorem sound_kernel (c : Dev nD) (E : Set ℕ) (i : grid0.Coords)
    (arg1 : Memref sig .tc .vmem S7x256x784 .f32) (harg1 : arg1.IsWhole) (arg2 : Memref sig .tc .vmem S16x256 .f32) (harg2 : arg2.IsWhole)
    (arg3 : Memref sig .tc .vmem S256x16 .f32) (harg3 : arg3.IsWhole) (arg4 : Memref sig .tc .vmem S7x256x784 .f32) (harg4 : arg4.IsWhole)
    (x0 : Vec F S7x256x784 .f32) (x1 : Vec F S16x256 .f32) (x2 : Vec F S256x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stored x0 x1 x2)) -∗ K ⟨⟩))
      ⊢ wp frame (wpE (defs₀ (F := F)) Variants.none c none) E (cc0__se_kernel i arg1 harg1 arg2 harg2 arg3 harg3 arg4 harg4) K := by
  simp only [cc0__se_kernel_eq_skeleton]; unfold cc0__se_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

end Cert.ReferenceIdeal.SeFrame

end
-- ==== Proof.LibLayout3.lean ====
/-
  Layout operations of rank-2 and rank-3 arrays read at an index by coordinates, for any extents:
  a trailing or middle unit axis added to a matrix; a unit axis broadcast; a vector laid along the last axis of a rank-3 array;
  the two leading axes of a rank-3 array merged into one (row-major) and split again.
-/
import Idealize.ShloMosaic.Lib.Pipeline.Value
import Idealize.ShloMosaic.Lib.ValueIdx
import Idealize.ShloMosaic.Lib.ValueLayout

namespace Idealize.ShloMosaic.Layout3

open Idealize.ShloMosaic Idealize.ShloMosaic.ValueIdx

variable {α : Type}

/-- An `[a, b]` array cast to `[a, b, 1]` reads at `(i, j, u)` the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- An `[a, b, 1]` array broadcast to `[a, b, c]` reads at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (by
    intro d
    match d with
    | ⟨0, _⟩ =>
      show i.val = if a = 1 then 0 else i.val
      split
      · next e => have := i.isLt; omega
      · rfl
    | ⟨1, _⟩ =>
      show j.val = if b = 1 then 0 else j.val
      split
      · next e => have := j.isLt; omega
      · rfl
    | ⟨2, _⟩ => show (0 : ℕ) = if (1 : ℕ) = 1 then 0 else k.val; rw [if_pos rfl])

/-- An `[a, 1, c]` array broadcast to `[a, b, c]` reads at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (by
    intro d
    match d with
    | ⟨0, _⟩ =>
      show i.val = if a = 1 then 0 else i.val
      split
      · next e => have := i.isLt; omega
      · rfl
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- A `[1, 1, c]` array broadcast to `[a, b, c]` reads at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (by
    intro d
    match d with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- An `[a, b, c]` array with its two leading axes merged, `[n, c]` with `n = a·b`, reads at row `i·b + j` the operand at
    `(i, j, ·)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- And split again: an `[n, c]` array cast to `[a, b, c]` reads at `(i, j, k)` the operand at row `i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.Layout3
-- ==== Proof.RefPayload.lean ====
/-
  The value the reference program's kernel body stores, read at an index, on the extended reals.

  For a block `X` of seven images (indexed (image j, channel k, pixel s)) and the two weight matrices, the stored
  block at (j, k, s) is  X (j, k, s) · gate j k  where the gate of channel k of image j is computed from image j's
  rows alone:  the scaled pixel sums of its channels, the first layer rectified, the second layer through the
  logistic function.  In particular row j of the stored block depends on row j of `X` only: whatever the other
  rows hold does not matter.
-/
import proofs.«106039_g2000206592738388_pallasbulk_217_6_alg».proof.Proof.RefBody
import proofs.«106039_g2000206592738388_pallasbulk_217_6_alg».proof.Proof.SeSpec
import proofs.«106039_g2000206592738388_pallasbulk_217_6_alg».proof.Proof.LibGram
import proofs.«106039_g2000206592738388_pallasbulk_217_6_alg».proof.Proof.LibLayout3
import Idealize.ShloMosaic.PureOps.Ideal.Laws
import Idealize.ShloMosaic.Lib.ValueIdx
import Idealize.ShloMosaic.Lib.Pipeline.Value

noncomputable section

namespace Cert.ReferenceIdeal.SeValue

open Cert.ReferenceIdeal Cert.ReferenceIdeal.Gen Cert.ReferenceIdeal.SeFrame
open Idealize.ShloMosaic Idealize.ShloMosaic.ValueIdx Idealize.ShloMosaic.Pipeline

/-- The scaled pixel sum of channel `k` of image `j` of a seven-image block. -/
def blockPool (X : S7x256x784.Idx → EReal) (j : Fin 7) (k : Fin 256) : EReal :=
  (∑ s : Fin 784, X (ix3 j k s)) * SeBlock.invPixels

/-- Hidden unit `r` of image `j` of the block. -/
def blockHidden (X : S7x256x784.Idx → EReal) (w1 : S16x256.Idx → EReal) (j : Fin 7) (r : Fin 16) : EReal :=
  max (∑ k : Fin 256, blockPool X j k * w1 (ix2 r k)) 0

/-- The gate of channel `k` of image `j` of the block. -/
def blockGate (X : S7x256x784.Idx → EReal) (w1 : S16x256.Idx → EReal) (w2 : S256x16.Idx → EReal) (j : Fin 7) (k : Fin 256) : EReal :=
  Ideal.logistic (∑ r : Fin 16, blockHidden X w1 j r * w2 (ix2 k r))

/-- A lane sum over the pixels of a [7, 256, 784] block into the zero accumulator is, at (j, k), the sum of the 784 pixels. -/
theorem pixelSum_apply (v : FVec Ideal S7x256x784 .f32) (j : Fin 7) (k : Fin 256) :
    multiReduction .add [2] S7x256 v 0x00000000#32 reduces_S7x256x784_S7x256 (.inl rfl) rfl (ix2 j k)
      = ∑ s : Fin 784, v (ix3 j k s) := by
  refine (Ideal.multiReduction_add_single v _ reduces_S7x256x784_S7x256 (.inl rfl) rfl (ix2 j k)).trans ?_
  refine Finset.sum_congr rfl fun s _ => congrArg v (funext fun a => Fin.ext ?_)
  match a with
  | ⟨0, _⟩ => rfl
  | ⟨1, _⟩ => rfl
  | ⟨2, _⟩ => rfl

/-- The first product into the zero accumulator, at (j, r): the sum over the 256 channels. -/
theorem first_apply (a : FVec Ideal S7x256 .f32) (w1 : FVec Ideal S16x256 .f32) (j : Fin 7) (r : Fin 16) :
    matmul dot_S7x256_S16x256_S7x16_1_1_0_0_n_n none a w1 (constant S7x16 .f32 0x00000000#32) (ix2 j r)
      = ∑ k : Fin 256, a (ix2 j k) * w1 (ix2 r k) := by
  refine (Ideal.matmul_constant_zero_apply dot_S7x256_S16x256_S7x16_1_1_0_0_n_n none a w1 (ix2 j r)).trans ?_
  exact Gram.sum_contr_last dot_S7x256_S16x256_S7x16_1_1_0_0_n_n rfl rfl rfl rfl (fun _ _ => rfl) (fun _ _ => rfl) a w1 (ix2 j r)

/-- The second product into the zero accumulator, at (j, k): the sum over the 16 hidden units. -/
theorem second_apply (h : FVec Ideal S7x16 .f32) (w2 : FVec Ideal S256x16 .f32) (j : Fin 7) (k : Fin 256) :
    matmul dot_S7x16_S256x16_S7x256_1_1_0_0_n_n none h w2 (constant S7x256 .f32 0x00000000#32) (ix2 j k)
      = ∑ r : Fin 16, h (ix2 j r) * w2 (ix2 k r) := by
  refine (Ideal.matmul_constant_zero_apply dot_S7x16_S256x16_S7x256_1_1_0_0_n_n none h w2 (ix2 j k)).trans ?_
  exact Gram.sum_contr_last dot_S7x16_S256x16_S7x256_1_1_0_0_n_n rfl rfl rfl rfl (fun _ _ => rfl) (fun _ _ => rfl) h w2 (ix2 j k)

/-- The gates spread over the pixels: a [7, 256] array given a trailing unit axis and broadcast along it reads at
    (j, k, s) the array at (j, k). -/
theorem spread_apply (g : FVec Ideal S7x256 .f32) (j : Fin 7) (k : Fin 256) (s : Fin 784) :
    broadcastTo S7x256x784 (shapeCast S7x256x1 g shapeCasts_S7x256_S7x256x1) broadcasts_S7x256x1_S7x256x784 (ix3 j k s) = g (ix2 j k) :=
  (Layout3.broadcastTo_ab1_abc_apply _ broadcasts_S7x256x1_S7x256x784 j k s).trans
    (Layout3.shapeCast_ab_ab1_apply g shapeCasts_S7x256_S7x256x1 j k 0)

/-- The value the body stores, at (j, k, s): the second load's entry there times the gate computed from the first load. -/
theorem pay_apply (X X' : Vec Ideal S7x256x784 .f32) (w1 : Vec Ideal S16x256 .f32) (w2 : Vec Ideal S256x16 .f32)
    (j : Fin 7) (k : Fin 256) (s : Fin 784) :
    k0_pay1 (F := Ideal) X w1 w2 X' (ix3 j k s) = X' (ix3 j k s) * blockGate X w1 w2 j k := by
  unfold k0_pay1
  dsimp only
  rw [mulf_apply, shapeCast_self, spread_apply]
  refine congrArg (X' (ix3 j k s) * ·) ?_
  show Ideal.logistic _ = _
  unfold blockGate
  refine congrArg Ideal.logistic ?_
  refine (second_apply _ w2 j k).trans (Finset.sum_congr rfl fun r _ => congrArg (· * w2 (ix2 k r)) ?_)
  show max _ (Ideal.ofBits .f32 0x00000000#32) = _
  rw [Ideal.ofBits_zero_f32]
  unfold blockHidden
  refine congrArg (max · 0) ?_
  refine (first_apply _ w1 j r).trans (Finset.sum_congr rfl fun k' _ => congrArg (· * w1 (ix2 r k')) ?_)
  show _ * Ideal.ofBits .f32 0x3AA72F05#32 = _
  unfold blockPool SeBlock.invPixels
  refine congrArg (· * Ideal.ofBits .f32 0x3AA72F05#32) ?_
  rw [shapeCast_self]
  exact pixelSum_apply X j k'

/-- The stored block, at (j, k, s). -/
theorem stored_apply (X : Vec Ideal S7x256x784 .f32) (w1 : Vec Ideal S16x256 .f32) (w2 : Vec Ideal S256x16 .f32)
    (j : Fin 7) (k : Fin 256) (s : Fin 784) :
    stored (F := Ideal) X w1 w2 (ix3 j k s) = X (ix3 j k s) * blockGate X w1 w2 j k := by
  have hz3 : (![0, 0, 0] : Fin 3 → Nat) = fun _ => 0 := funext fun a => by fin_cases a <;> rfl
  have hz2 : (![0, 0] : Fin 2 → Nat) = fun _ => 0 := funext fun a => by fin_cases a <;> rfl
  unfold stored
  rw [View.canon_unit_zero hz3]
  simp only [View.ld_unit_zero (S := S7x256x784) hz3, View.ld_unit_zero (S := S16x256) hz2, View.ld_unit_zero (S := S256x16) hz2]
  exact pay_apply X X w1 w2 j k s

/-- Row `j` of the stored block depends on row `j` of the image block only. -/
theorem stored_row_congr (X Y : Vec Ideal S7x256x784 .f32) (w1 : Vec Ideal S16x256 .f32) (w2 : Vec Ideal S256x16 .f32)
    (j : Fin 7) (h : ∀ (k : Fin 256) (s : Fin 784), X (ix3 j k s) = Y (ix3 j k s)) (k : Fin 256) (s : Fin 784) :
    stored (F := Ideal) X w1 w2 (ix3 j k s) = stored (F := Ideal) Y w1 w2 (ix3 j k s) := by
  rw [stored_apply, stored_apply, h k s]
  unfold blockGate blockHidden blockPool
  simp only [h]

end Cert.ReferenceIdeal.SeValue

end
-- ==== Proof.RefData.lean ====
/-
  The reference program's run: what its pipeline's buffers hold point by point, and that the run ends.

  The image array [128, 256, 784] is processed in 19 blocks of seven images; 18 · 7 = 126, so the last block
  reaches five images past the array's end. There the transfer is cut: a fetch fills only the block's rows that lie
  inside the array (two rows at the last point) and the rest of the staging buffer holds words nothing names; a
  write-back writes only those rows. So the image buffer and the result buffer are described on their rows inside
  the array only. This is sound because each row of the stored block is computed from the same row of the image
  block (`SeValue.stored_row_congr`): the unnamed rows never reach a named one.
-/
import proofs.«106039_g2000206592738388_pallasbulk_217_6_alg».proof.Proof.RefBody
import proofs.«106039_g2000206592738388_pallasbulk_217_6_alg».proof.Proof.RefPayload
import Idealize.ShloMosaic.Lib.Pipeline.FrameBody
import Idealize.ShloMosaic.Lib.Pipeline.FrameSuffix
import Idealize.ShloMosaic.Lib.Tactic

set_option maxRecDepth 16384

noncomputable section

namespace Cert.ReferenceIdeal.SeFrame

open Cert.ReferenceIdeal Cert.ReferenceIdeal.Gen Cert.ReferenceIdeal.SeValue
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cut blocks -/

/-- At every point the image window and the result window move the same rows, and all 256 channels and 784 pixels of
    each: only the leading axis (the images) is ever cut. -/
theorem moved_sizes : ∀ t : Fin cfg0.N,
    win0_3.xsize (grid0.coords t) 0 = win0_0.xsize (grid0.coords t) 0
    ∧ win0_0.xsize (grid0.coords t) 1 = 256 ∧ win0_0.xsize (grid0.coords t) 2 = 784
    ∧ win0_3.xsize (grid0.coords t) 1 = 256 ∧ win0_3.xsize (grid0.coords t) 2 = 784 :=
  (by decide +kernel : ∀ t : Fin grid0.N, _)

/-- An index of the block whose image lies among the rows the image window moves at `t` is moved. -/
theorem moved_of_row (t : Fin cfg0.N) (j : Fin 7) (hj : j.val < win0_0.xsize (grid0.coords t) 0) (k : Fin 256) (s : Fin 784) :
    win0_0.moved (grid0.coords t) (ix3 j k s) = true := by
  obtain ⟨-, h1, h2, -, -⟩ := moved_sizes t
  refine (win0_0.moved_iff (grid0.coords t) _).mpr fun a => ?_
  match a with
  | ⟨0, _⟩ => exact hj
  | ⟨1, _⟩ => show k.val < win0_0.xsize (grid0.coords t) 1; rw [h1]; exact k.isLt
  | ⟨2, _⟩ => show s.val < win0_0.xsize (grid0.coords t) 2; rw [h2]; exact s.isLt

/-- On a moved index a filled block does not depend on what it was filled over. -/
theorem fill_irrel {α : Type} (t : Fin cfg0.N) (d d' : win0_0.block.Idx → α) (g : (win0_0.xblock (grid0.coords t)).Idx → α)
    (J : win0_0.block.Idx) (h : win0_0.moved (grid0.coords t) J = true) :
    win0_0.fill (grid0.coords t) d g J = win0_0.fill (grid0.coords t) d' g J := by
  unfold Window.fill; rw [dif_pos h, dif_pos h]

/-! ## The proof data -/

/-- The image block at point `t`: its rows inside the array as the fetch reads them, zero on the rows past the
    array's end (a choice: nothing reads those rows' gates into a row inside the array). -/
def imgBlock (c : Dev nD) (t : Fin cfg0.N) : S7x256x784.Idx → EReal :=
  win0_0.fill (grid0.coords t) (fun _ => 0) (iblk m c 0 t)

/-- The proof data of the pipeline on core `c`: the arrays as the region finds them; after the body at point `t` the
    image buffer at `imgBlock`, the weight buffers at the weight matrices, the result buffer at the stored value of
    those; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => imgBlock m c t
    | ⟨1, _⟩ => iblk m c 1 t
    | ⟨2, _⟩ => iblk m c 2 t
    | ⟨3, _⟩ => stored (F := Ideal) (imgBlock m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = imgBlock m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (F := Ideal) (imgBlock m c t) (iblk m c 1 t) (iblk m c 2 t) := by dsimp only [dats]

/-- What the body finds in the image buffer: just fetched, the block's rows inside the array over whatever was there. -/
theorem before_0 (c : Dev nD) (t : Fin cfg0.N) (d) :
    (dats m 0 c).before 0 t d = win0_0.fill (grid0.coords t) d (iblk m c 0 t) := by
  unfold Dat.before; rw [if_pos (fetch0_0 t)]; rfl
/-- The weight buffers hold the weight matrices at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The rows inside the array do not see the others -/

/-- The part of the stored block that the write-back at `t` moves is the same whatever the image buffer held past the
    array's end. -/
theorem cut_stored (c : Dev nD) (t : Fin cfg0.N) (d : S7x256x784.Idx → EReal) :
    win0_3.cut (grid0.coords t) (stored (F := Ideal) (win0_0.fill (grid0.coords t) d (iblk m c 0 t)) (iblk m c 1 t) (iblk m c 2 t))
      = win0_3.cut (grid0.coords t) (stored (F := Ideal) (imgBlock m c t) (iblk m c 1 t) (iblk m c 2 t)) := by
  funext j'
  obtain ⟨h03, -, -, -, -⟩ := moved_sizes t
  show stored (F := Ideal) _ _ _ (win0_3.xinj (grid0.coords t) j') = stored (F := Ideal) _ _ _ (win0_3.xinj (grid0.coords t) j')
  have hrow : ((win0_3.xinj (grid0.coords t) j') 0).val < win0_0.xsize (grid0.coords t) 0 := h03 ▸ (j' 0).isLt
  rw [eq_ix3 (win0_3.xinj (grid0.coords t) j')]
  exact stored_row_congr _ _ _ _ _ (fun k s => fill_irrel t d (fun _ => 0) (iblk m c 0 t) _ (moved_of_row t _ hrow k s)) _ _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the image and result buffers stated on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    unfold imgBlock; rw [win0_0.cut_fill]; iexact H0
  isplitl [H1]; · iexact H1
  isplitl [H2]; · iexact H2
  · iexists stored (F := Ideal) (win0_0.fill (grid0.coords t) d0 (iblk m c 0 t)) (iblk m c 1 t) (iblk m c 2 t)
    rw [win0_3.fill_congr_cut (grid0.coords t) (cut_stored m c t d0)]; iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline at what the write-backs leave and every other buffer as the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its argument arrays end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.SeFrame

end
-- ==== Proof.RefBlocks.lean ====
/-
  The reference program's result array, in closed form.

  The pipeline's result array is [128, 256, 784]: image, channel, pixel. Point `t` of the 19 writes back rows
  7t .. 7t + 6 of it (rows 126 and 127 only, at the last point), and what it writes at (7t + j, k, s) is
  x (7t + j, k, s / 28, s % 28) times the gate of channel k of image 7t + j — the image block's rows inside the array
  are the input's rows with the two pixel axes merged, and the gate of a row is computed from that row alone. The
  19 blocks cover the 128 rows, so the array ends holding the specification's function with its pixel axes merged
  (`flatG`).
-/
import proofs.«106039_g2000206592738388_pallasbulk_217_6_alg».proof.Proof.RefData
import proofs.«106039_g2000206592738388_pallasbulk_217_6_alg».proof.Proof.SeSpec
import Idealize.ShloMosaic.Lib.Pipeline.Value
import Idealize.ShloMosaic.Lib.StableHlo.Run

set_option maxRecDepth 16384

noncomputable section

namespace Cert.ReferenceIdeal.SeFinal

open Cert.ReferenceIdeal Cert.ReferenceIdeal.Gen Cert.ReferenceIdeal.SeValue Cert.ReferenceIdeal.SeFrame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The three argument arrays on core `c`. -/
abbrev argX (c : Dev nD) : SeBlock.SX.Idx → EReal := m ((c : Thread nD τ).loc main_arg0)
abbrev argW1 (c : Dev nD) : SeBlock.SW1.Idx → EReal := m ((c : Thread nD τ).loc main_arg1)
abbrev argW2 (c : Dev nD) : SeBlock.SW2.Idx → EReal := m ((c : Thread nD τ).loc main_arg2)

/-- The specification's result with its two pixel axes merged: at (b, k, s) the result at (b, k, s / 28, s % 28). -/
def flatG (c : Dev nD) : S128x256x784.Idx → EReal :=
  fun i => SeBlock.G (argX m c) (argW1 m c) (argW2 m c) (ix4 (i 0) (i 1) (SeBlock.pixRow (i 2)) (SeBlock.pixCol (i 2)))

/-! ## The index maps, decided over the grid -/

/-- Point `t`'s image block and result block start at row 7t, channel 0, pixel 0, and the rows they move stay inside the
    128: seven of them, except at the last point the two that are left. -/
theorem blk_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ 7 * t.val + win0_0.xsize (grid0.coords t) 0 ≤ 128
    ∧ (7 * t.val + 7 ≤ 128 → win0_0.xsize (grid0.coords t) 0 = 7)
    ∧ (128 < 7 * t.val + 7 → 7 * t.val + win0_0.xsize (grid0.coords t) 0 = 128) :=
  (by decide +kernel : ∀ t : Fin grid0.N, _)

/-- The weight windows' one block is the whole matrix at every point. -/
theorem weight_facts : ∀ t : Fin cfg0.N,
    win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

/-! ## The arrays the region finds -/

/-- The image array is the input with its two pixel axes merged, row-major. -/
theorem V_flat (c : Dev nD) :
    (V m c main_v0 : S128x256x784.Idx → EReal)
      = shapeCast S128x256x784 (argX m c) shapeCasts_S128x256x28x28_S128x256x784 := by
  show StableHlo.after hostOps0 (fun b => m (c, b)) (Proc.devRef .tc main_v0) = _
  after_results
  rfl

/-- At (b, k, s) it holds the input at (b, k, s / 28, s % 28). -/
theorem V_flat_apply (c : Dev nD) (b : Fin 128) (k : Fin 256) (s : Fin 784) :
    V m c main_v0 (ix3 b k s) = argX m c (ix4 b k (SeBlock.pixRow s) (SeBlock.pixCol s)) := by
  refine (congrFun (V_flat m c) (ix3 b k s)).trans ?_
  refine shapeCast_apply _ _ _ _ ?_
  rw [Shape.rowMajor_val_four, Shape.rowMajor_val_three]
  show ((b.val * 256 + k.val) * 28 + s.val / 28) * 28 + s.val % 28 = (b.val * 256 + k.val) * 784 + s.val
  omega

/-- The weight buffers hold the weight matrices. -/
theorem w1_blk (c : Dev nD) (t : Fin cfg0.N) : iblk m c 1 t = argW1 m c := by
  obtain ⟨e0, e1, -, -⟩ := weight_facts t
  funext j
  show V m c main_arg1 (((cfg0.win 1).blk t).view.emb j) = _
  rw [V_main_arg1]
  refine congrArg (argW1 m c) (funext fun a => Fin.ext ?_)
  match a with
  | ⟨0, _⟩ => show win0_1.index t (0 : Fin 2) * 16 + 1 * (j 0).val = (j 0).val; omega
  | ⟨1, _⟩ => show win0_1.index t (1 : Fin 2) * 256 + 1 * (j 1).val = (j 1).val; omega
theorem w2_blk (c : Dev nD) (t : Fin cfg0.N) : iblk m c 2 t = argW2 m c := by
  obtain ⟨-, -, e0, e1⟩ := weight_facts t
  funext j
  show V m c main_arg2 (((cfg0.win 2).blk t).view.emb j) = _
  rw [V_main_arg2]
  refine congrArg (argW2 m c) (funext fun a => Fin.ext ?_)
  match a with
  | ⟨0, _⟩ => show win0_2.index t (0 : Fin 2) * 256 + 1 * (j 0).val = (j 0).val; omega
  | ⟨1, _⟩ => show win0_2.index t (1 : Fin 2) * 16 + 1 * (j 1).val = (j 1).val; omega

/-- Row `j` of point `t`'s image block, when it lies inside the array, is the input's image 7t + j. -/
theorem imgBlock_apply (c : Dev nD) (t : Fin cfg0.N) (j : Fin 7) (hj : j.val < win0_0.xsize (grid0.coords t) 0)
    (b : Fin 128) (hb : b.val = 7 * t.val + j.val) (k : Fin 256) (s : Fin 784) :
    imgBlock m c t (ix3 j k s) = argX m c (ix4 b k (SeBlock.pixRow s) (SeBlock.pixCol s)) := by
  obtain ⟨e0, e1, e2, -, -, -, -, -, -⟩ := blk_facts t
  unfold imgBlock Window.fill
  rw [dif_pos (moved_of_row t j hj k s)]
  refine Eq.trans ?_ (V_flat_apply m c b k s)
  show V m c main_v0 (((cfg0.win 0).blk t).view.emb _) = _
  refine congrArg (V m c main_v0) (funext fun a => Fin.ext ?_)
  match a with
  | ⟨0, _⟩ => show win0_0.index t (0 : Fin 3) * 7 + 1 * j.val = b.val; omega
  | ⟨1, _⟩ => show win0_0.index t (1 : Fin 3) * 256 + 1 * k.val = k.val; omega
  | ⟨2, _⟩ => show win0_0.index t (2 : Fin 3) * 784 + 1 * s.val = s.val; omega

/-- So the gate the body computes for that row is the gate of image 7t + j. -/
theorem blockGate_eq (c : Dev nD) (t : Fin cfg0.N) (j : Fin 7) (hj : j.val < win0_0.xsize (grid0.coords t) 0)
    (b : Fin 128) (hb : b.val = 7 * t.val + j.val) (k : Fin 256) :
    blockGate (imgBlock m c t) (iblk m c 1 t) (iblk m c 2 t) j k = SeBlock.gate (argX m c) (argW1 m c) (argW2 m c) b k := by
  unfold blockGate blockHidden blockPool SeBlock.gate SeBlock.hidden SeBlock.pool
  simp only [imgBlock_apply m c t j hj b hb, w1_blk, w2_blk]

/-! ## What a point writes back, and the cover -/

/-- Point `t` writes back block `t` of `flatG`. -/
theorem flushed_eq (c : Dev nD) (t : Fin cfg0.N) :
    (dats m 0 c).flushed 3 t = ((cfg0.win 3).blk t).view.read (Elt Ideal) (flatG m c) := by
  show (cfg0.win 3).cut (grid0.coords t) ((dats m 0 c).after 3 t) = _
  rw [after_3]
  obtain ⟨h03, -, -, h31, h32⟩ := moved_sizes t
  obtain ⟨-, -, -, e0, e1, e2, hle, -, -⟩ := blk_facts t
  funext j'
  have hj0 : (j' 0).val < win0_0.xsize (grid0.coords t) 0 := h03 ▸ (j' 0).isLt
  have hj1 : (j' 1).val < 256 := h31 ▸ (j' 1).isLt
  have hj2 : (j' 2).val < 784 := h32 ▸ (j' 2).isLt
  have hj7 : (j' 0).val < 7 := lt_of_lt_of_le hj0 (win0_0.xsize_le _ 0)
  show stored (F := Ideal) (imgBlock m c t) (iblk m c 1 t) (iblk m c 2 t) (win0_3.xinj (grid0.coords t) j')
    = flatG m c (((cfg0.win 3).blk t).view.emb j')
  have eJ : win0_3.xinj (grid0.coords t) j' = ix3 (⟨(j' 0).val, hj7⟩ : Fin 7) (⟨(j' 1).val, hj1⟩ : Fin 256) (⟨(j' 2).val, hj2⟩ : Fin 784) :=
    funext fun a => Fin.ext (by
      match a with
      | ⟨0, _⟩ => rfl
      | ⟨1, _⟩ => rfl
      | ⟨2, _⟩ => rfl)
  have eI : ((cfg0.win 3).blk t).view.emb j'
      = ix3 (⟨7 * t.val + (j' 0).val, by omega⟩ : Fin 128) (⟨(j' 1).val, hj1⟩ : Fin 256) (⟨(j' 2).val, hj2⟩ : Fin 784) :=
    funext fun a => Fin.ext (by
      match a with
      | ⟨0, _⟩ => show win0_3.index t (0 : Fin 3) * 7 + 1 * (j' 0).val = 7 * t.val + (j' 0).val; omega
      | ⟨1, _⟩ => show win0_3.index t (1 : Fin 3) * 256 + 1 * (j' 1).val = (j' 1).val; omega
      | ⟨2, _⟩ => show win0_3.index t (2 : Fin 3) * 784 + 1 * (j' 2).val = (j' 2).val; omega)
  rw [eJ, eI, stored_apply]
  unfold flatG SeBlock.G
  rw [imgBlock_apply m c t _ hj0 ⟨7 * t.val + (j' 0).val, by omega⟩ rfl, blockGate_eq m c t _ hj0 ⟨7 * t.val + (j' 0).val, by omega⟩ rfl]

/-- An index of the array is in point `t`'s block iff each coordinate is in the block's cut range on its axis. -/
theorem mem_blk (t : Fin cfg0.N) (i : S128x256x784.Idx) :
    i ∈ ((cfg0.win 3).blk t).view.set ↔ ∀ a : Fin 3, win0_3.index t a * S7x256x784.size a ≤ (i a).val
      ∧ (i a).val < win0_3.index t a * S7x256x784.size a + win0_3.xsize (grid0.coords t) a := by
  show i ∈ ((View.whole main_v1).slice (win0_3.rect t)).set ↔ _
  rw [View.set_slice_whole, Rect.mem_set_unit]
  exact Iff.rfl

/-- Every index of the array is in the block of the point its row belongs to: row r to point r / 7. -/
theorem cover (i : S128x256x784.Idx) : ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 784 := (i 2).isLt
  have hN : cfg0.N = 19 := N_0
  let t : Fin cfg0.N := ⟨(i 0).val / 7, by rw [hN]; omega⟩
  have ht : t.val = (i 0).val / 7 := rfl
  obtain ⟨h03, -, -, h31, h32⟩ := moved_sizes t
  obtain ⟨-, -, -, e0, e1, e2, hle, h7, hlast⟩ := blk_facts t
  refine ⟨t, flush0_3 t, (mem_blk t i).mpr fun a => ?_⟩
  match a with
  | ⟨0, _⟩ =>
    show win0_3.index t (0 : Fin 3) * 7 ≤ (i 0).val ∧ (i 0).val < win0_3.index t (0 : Fin 3) * 7 + win0_3.xsize (grid0.coords t) 0
    rw [h03, e0]
    by_cases hc : 7 * t.val + 7 ≤ 128
    · rw [h7 hc]; omega
    · have := hlast (by omega); omega
  | ⟨1, _⟩ =>
    show win0_3.index t (1 : Fin 3) * 256 ≤ (i 1).val ∧ (i 1).val < win0_3.index t (1 : Fin 3) * 256 + win0_3.xsize (grid0.coords t) 1
    rw [h31, e1]; omega
  | ⟨2, _⟩ =>
    show win0_3.index t (2 : Fin 3) * 784 ≤ (i 2).val ∧ (i 2).val < win0_3.index t (2 : Fin 3) * 784 + win0_3.xsize (grid0.coords t) 2
    rw [h32, e2]; omega

/-- The pipeline's result array after the run. -/
theorem final (c : Dev nD) : (dats m 0 c).arrAt 3 cfg0.N = flatG m c :=
  (dats m 0 c).arrAt_eq_of_cover 3 (flatG m c) (fun t _ => flushed_eq m c t) cover

end Cert.ReferenceIdeal.SeFinal

end
-- ==== Proof.RefRun.lean ====
/-
  The reference program's result.

  After the pipeline the program splits the pixel axis of its result array back into rows and columns: the result
  at (b, k, h, w) is the array at (b, k, 28 h + w), which is the specification's function at
  (b, k, (28 h + w) / 28, (28 h + w) % 28) = (b, k, h, w). So every weakly fair execution of the reference program
  terminates with its result the specification's function of its arguments, and its arguments unchanged.
-/
import proofs.«106039_g2000206592738388_pallasbulk_217_6_alg».proof.Proof.RefBlocks
import Idealize.ShloMosaic.Lib.Pipeline.Value
import Idealize.ShloMosaic.Lib.StableHlo.Run

set_option maxRecDepth 16384

noncomputable section

namespace Cert.ReferenceIdeal.SeFinal

open Cert.ReferenceIdeal Cert.ReferenceIdeal.Gen Cert.ReferenceIdeal.SeValue Cert.ReferenceIdeal.SeFrame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- `flatG` with its pixel axis split is the specification's function. -/
theorem split_flatG (c : Dev nD) :
    shapeCast S128x256x28x28 (flatG m c) shapeCasts_S128x256x784_S128x256x28x28 = SeBlock.G (argX m c) (argW1 m c) (argW2 m c) := by
  funext i
  have h2 : (i 2).val < 28 := (i 2).isLt
  have h3 : (i 3).val < 28 := (i 3).isLt
  refine (shapeCast_apply (flatG m c) shapeCasts_S128x256x784_S128x256x28x28 i
    (ix3 (i 0) (i 1) (⟨(i 2).val * 28 + (i 3).val, by omega⟩ : Fin 784)) ?_).trans ?_
  · rw [Shape.rowMajor_val_four, Shape.rowMajor_val_three]
    show ((i 0).val * 256 + (i 1).val) * 784 + ((i 2).val * 28 + (i 3).val) = (((i 0).val * 256 + (i 1).val) * 28 + (i 2).val) * 28 + (i 3).val
    omega
  · unfold flatG
    refine congrArg (SeBlock.G (argX m c) (argW1 m c) (argW2 m c)) (funext fun a => Fin.ext ?_)
    match a with
    | ⟨0, _⟩ => rfl
    | ⟨1, _⟩ => rfl
    | ⟨2, _⟩ => show ((i 2).val * 28 + (i 3).val) / 28 = (i 2).val; omega
    | ⟨3, _⟩ => show ((i 2).val * 28 + (i 3).val) % 28 = (i 3).val; omega

/-- The program's result buffer after the line that follows the pipeline. -/
theorem tail_eq (c : Dev nD) :
    Pipeline.afterTail₀ cfgs (dats m) 0 (V0 m) [hostOps1] c main_v2 = SeBlock.G (argX m c) (argW1 m c) (argW2 m c) := by
  unfold Pipeline.afterTail₀
  show StableHlo.after hostOps1 _ (Proc.devRef .tc main_v2) = _
  after_results
  have hW : Pipeline.withArrays (cfgs 0).spec c (V0 m c) (fun w => (dats m 0 c).arrAt w (cfgs 0).N) (Proc.devRef .tc main_v1) = flatG m c :=
    (Pipeline.withArrays_arr spec0 launch0.win.arr_inj c _ _ 3).trans (final m c)
  rw [hW]
  exact split_flatG m c

/-- Every weakly fair execution of the reference program terminates with its result the specification's function of
    its arguments, and its arguments unchanged. -/
theorem run : θ_run defs (onTc (τ := τ) (main (F := Ideal))) ⟨m, fun _ => 0, ρ⟩ (fun r => ∀ c : Dev nD,
      r.2.mem ((c.tc : Thread nD τ).loc main_v2) = SeBlock.G (argX m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.SeFinal

end
-- ==== Proof.lean ====
/-
  A squeeze-and-excitation block, computed two ways, is one function on the extended reals.

  Both programs take an input `x` of shape [128, 256, 28, 28] and weight matrices `w1` [16, 256], `w2` [256, 16], and
  return `x` with every channel of every image multiplied by a gate: the logistic function of the second layer applied
  to the rectified first layer applied to the channel means (the pixel sums times the f32 word nearest 1/784) of that
  image — `SeBlock.G` (Proof/SeSpec.lean).

  The kernel moves the two pixel axes in front ([784, 128, 256]), processes sixteen images at a time, and sums the
  784 pixels in 49 groups of 16. The reference merges the two pixel axes behind ([128, 256, 784]), processes seven
  images at a time — so its last block reaches past the end of the array and is cut there — and sums the 784 pixels in
  one run. On the extended reals a finite sum may be regrouped (addition is commutative and associative there), each
  image's gate is computed from that image alone, and every other operation is the same on both sides, the same
  constants included; so both results are `SeBlock.G` of the arguments, and no finiteness of the inputs is used.

  The five claims: each program terminates with its arguments unchanged (the kernel's two readings by the generated
  frame; the reference by Proof/RefData.lean, its rows past the array's end left unnamed); the kernel's idealized
  reading is the kernel's own text (no rewrite was applied); and the two idealized programs end with equal results
  (Proof/KernelRun.lean, Proof/RefRun.lean).
-/
import proofs.«106039_g2000206592738388_pallasbulk_217_6_alg».proof.Defs
import proofs.«106039_g2000206592738388_pallasbulk_217_6_alg».proof.Proof.Gen.Kernel
import proofs.«106039_g2000206592738388_pallasbulk_217_6_alg».proof.Proof.Gen.Kernel.Frame
import proofs.«106039_g2000206592738388_pallasbulk_217_6_alg».proof.Proof.Gen.KernelIdeal
import proofs.«106039_g2000206592738388_pallasbulk_217_6_alg».proof.Proof.Gen.KernelIdeal.Frame
import proofs.«106039_g2000206592738388_pallasbulk_217_6_alg».proof.Proof.Gen.ReferenceIdeal
import proofs.«106039_g2000206592738388_pallasbulk_217_6_alg».proof.Proof.Gen.Pre_finite_inputs
import proofs.«106039_g2000206592738388_pallasbulk_217_6_alg».proof.Proof.KernelRun
import proofs.«106039_g2000206592738388_pallasbulk_217_6_alg».proof.Proof.RefRun
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference's. -/
theorem frame_referenceIdeal : Cert.frame_ReferenceIdeal := fun m ρ _ => Cert.ReferenceIdeal.SeFrame.frame m ρ

/-- No operation of the kernel was rewritten for its reading on the extended reals. -/
theorem preserves : Cert.preserves_Kernel_KernelIdeal := trivial

/-- From memories that agree on the arguments both programs end with the specification's function of them. -/
theorem algebraic : Cert.algebraic_KernelIdeal_ReferenceIdeal := by
  intro m ρ m' ρ' _ hagree
  refine ⟨_, Cert.KernelIdeal.SeValue.run m ρ, ?_⟩
  refine (θ_run Cert.ReferenceIdeal.defs _ _).mono (fun _ h c => ⟨(h c).1.trans ?_, (h c).2⟩)
    (Cert.ReferenceIdeal.SeFinal.run m' ρ')
  exact congr (congr (congrArg SeBlock.G (hagree c).1) (hagree c).2.1) (hagree c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
